-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x12000 : Shape := ⟨2, ![12000, 12000]⟩
abbrev S12000x256 : Shape := ⟨2, ![12000, 256]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S12000x12000 : S_.BroadcastsInDim S12000x12000 (![] : Fin 0 → Fin S12000x12000.rank)
  reducesTo_S12000x12000_S_d0_1 : S12000x12000.ReducesTo [0, 1] S_
  h_S_ : 0 < S_.numel
  bcast_S_S12000x256 : S_.BroadcastsInDim S12000x256 (![] : Fin 0 → Fin S12000x256.rank)
  reducesTo_S12000x256_S_d0_1 : S12000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x40 .f32) (main_arg7 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x40 .f32 := Host.absf main_arg6
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  fn_part2 (F := F) main_arg7 main_v33

def fn {F : FTy → Type} [FloatOps F] (main_arg0 : FVec F S12000x12000 .f32) (main_arg1 : FVec F S12000x256 .f32) (main_arg2 : FVec F S256x256 .f32) (main_arg3 : FVec F S256 .f32) (main_arg4 : FVec F S256x256 .f32) (main_arg5 : FVec F S256 .f32) (main_arg6 : FVec F S256x40 .f32) (main_arg7 : FVec F S40 .f32) : IVec S_ 1 :=
  let main_v0 : FVec F S12000x12000 .f32 := Host.absf main_arg0
  let main_cst : FVec F S_ .f32 := constant S_ .f32 0x7F800000#32
  let main_v1 : FVec F S12000x12000 .f32 := broadcastInDim S12000x12000 ![] bcast_S_S12000x12000 main_cst
  let main_v2 : IVec S12000x12000 1 := cmpf .olt main_v0 main_v1
  let main_c : IVec S_ 1 := constantI S_ 1 1#1
  let main_v3 : IVec S_ 1 := (fun x v => Host.reduce IntOp.andi x v reducesTo_S12000x12000_S_d0_1 h_S_) main_v2 main_c
  let main_v4 : FVec F S12000x256 .f32 := Host.absf main_arg1
  let main_cst_0 : FVec F S_ .f32 := constant S_ .f32 0x7F800000#32
  let main_v5 : FVec F S12000x256 .f32 := broadcastInDim S12000x256 ![] bcast_S_S12000x256 main_cst_0
  let main_v6 : IVec S12000x256 1 := cmpf .olt main_v4 main_v5
  let main_c_1 : IVec S_ 1 := constantI S_ 1 1#1
  let main_v7 : IVec S_ 1 := (fun x v => Host.reduce IntOp.andi x v reducesTo_S12000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S12000x12000 : Shape := ⟨2, ![12000, 12000]⟩
abbrev S12000x256 : Shape := ⟨2, ![12000, 256]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S240x12000 : Shape := ⟨2, ![240, 12000]⟩
abbrev S240x256 : Shape := ⟨2, ![240, 256]⟩
abbrev S240 : Shape := ⟨1, ![240]⟩
abbrev S240x1 : Shape := ⟨2, ![240, 1]⟩
abbrev S_ : Shape := ⟨0, ![]⟩
abbrev S256x128 : Shape := ⟨2, ![256, 128]⟩
abbrev S128 : Shape := ⟨1, ![128]⟩
abbrev S1x128 : Shape := ⟨2, ![1, 128]⟩
abbrev S12000x128 : Shape := ⟨2, ![12000, 128]⟩
abbrev S240x128 : Shape := ⟨2, ![240, 128]⟩
abbrev S12000x40 : Shape := ⟨2, ![12000, 40]⟩

abbrev nBuf : Space → Nat
  | .hbm => 23
  | .vmem => 21
  | .smem => 0
  | _ => 0

abbrev bufTy : (tb : Table) → Fin (tcTables nBuf tb) → BufTy
  | .hbm, ⟨0, _⟩ => ⟨S12000x12000, .f32⟩
  | .hbm, ⟨1, _⟩ => ⟨S12000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S12000x12000, .bf16⟩
  | .hbm, ⟨9, _⟩ => ⟨S12000x256, .bf16⟩
  | .hbm, ⟨10, _⟩ => ⟨S1x256, .f32⟩
  | .hbm, ⟨11, _⟩ => ⟨S12000x256, .bf16⟩
  | .hbm, ⟨12, _⟩ => ⟨S1x256, .f32⟩
  | .hbm, ⟨13, _⟩ => ⟨S12000x256, .bf16⟩
  | .hbm, ⟨14, _⟩ => ⟨S_, .i32⟩
  | .hbm, ⟨15, _⟩ => ⟨S_, .f32⟩
  | .hbm, ⟨16, _⟩ => ⟨S256x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S12000x128, .f32⟩
  | .hbm, ⟨22, _⟩ => ⟨S12000x40, .f32⟩
  | .local _ .vmem, ⟨0, _⟩ => ⟨S240x12000, .bf16⟩
  | .local _ .vmem, ⟨1, _⟩ => ⟨S240x12000, .bf16⟩
  | .local _ .vmem, ⟨2, _⟩ => ⟨S12000x256, .bf16⟩
  | .local _ .vmem, ⟨3, _⟩ => ⟨S256x256, .f32⟩
  | .local _ .vmem, ⟨4, _⟩ => ⟨S1x256, .f32⟩
  | .local _ .vmem, ⟨5, _⟩ => ⟨S240x256, .bf16⟩
  | .local _ .vmem, ⟨6, _⟩ => ⟨S240x256, .bf16⟩
  | .local _ .vmem, ⟨7, _⟩ => ⟨S240x12000, .bf16⟩
  | .local _ .vmem, ⟨8, _⟩ => ⟨S240x12000, .bf16⟩
  | .local _ .vmem, ⟨9, _⟩ => ⟨S12000x256, .bf16⟩
  | .local _ .vmem, ⟨10, _⟩ => ⟨S256x256, .f32⟩
  | .local _ .vmem, ⟨11, _⟩ => ⟨S1x256, .f32⟩
  | .local _ .vmem, ⟨12, _⟩ => ⟨S240x256, .bf16⟩
  | .local _ .vmem, ⟨13, _⟩ => ⟨S240x256, .bf16⟩
  | .local _ .vmem, ⟨14, _⟩ => ⟨S240x12000, .bf16⟩
  | .local _ .vmem, ⟨15, _⟩ => ⟨S240x12000, .bf16⟩
  | .local _ .vmem, ⟨16, _⟩ => ⟨S12000x256, .bf16⟩
  | .local _ .vmem, ⟨17, _⟩ => ⟨S256x128, .f32⟩
  | .local _ .vmem, ⟨18, _⟩ => ⟨S1x128, .f32⟩
  | .local _ .vmem, ⟨19, _⟩ => ⟨S240x128, .f32⟩
  | .local _ .vmem, ⟨20, _⟩ => ⟨S240x128, .f32⟩
  | _, _ => ⟨S12000x12000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x12000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S240x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S240x12000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S240x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S240x12000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S240x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  shapeCasts_S256_S1x256 : S256.ShapeCasts S1x256
  inb_S240x12000_S240x12000_0_0 : ∀ a, (![0, 0] : Fin 2 → Nat) a + S240x12000.size a ≤ S240x12000.size a
  h_S240x12000 : 0 < S240x12000.numel
  shapeCasts_S240x12000_S240x12000 : S240x12000.ShapeCasts S240x12000
  inb_S12000x256_S12000x256_0_0 : ∀ a, (![0, 0] : Fin 2 → Nat) a + S12000x256.size a ≤ S12000x256.size a
  h_S12000x256 : 0 < S12000x256.numel
  shapeCasts_S12000x256_S12000x256 : S12000x256.ShapeCasts S12000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S240x256 : S1x256.Broadcasts S240x256
  reduces_S240x256_S240 : S240x256.Reduces [1] S240
  shapeCasts_S240_S240x1 : S240.ShapeCasts S240x1
  broadcasts_S240x1_S240x256 : S240x1.Broadcasts S240x256
  inb_S240x256_S240x256_0_0 : ∀ a, (![0, 0] : Fin 2 → Nat) a + S240x256.size a ≤ S240x256.size a
  h_S240x256 : 0 < S240x256.numel
  packedbf16_S240x256_S240x256_0_0 : (Rect.unit (s := S240x256) ![0, 0] S240x256.size inb_S240x256_S240x256_0_0).PackedRows (EltTy.packing .bf16)
  pads_S256x40_S256x128_000_0880 : S256x40.Pads (![0, 0] : Fin 2 → Nat) ![0, 88] ![0, 0] S256x128
  h_S_ : 0 < S_.numel
  pads_S40_S128_0880 : S40.Pads (![0] : Fin 1 → Nat) ![88] ![0] S128
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S240x128 : S1x128.Broadcasts S240x128
  inb_S240x128_S240x128_0_0 : ∀ a, (![0, 0] : Fin 2 → Nat) a + S240x128.size a ≤ S240x128.size a
  h_S240x128 : 0 < S240x128.numel
  slices_S12000x128_S12000x40_0_0 : S12000x128.Slices ![0, 0] S12000x40
  dot_S240x12000_S12000x256_S240x256_1_0_0_1_n_n_wf : DotDims.WF S240x12000 S12000x256 S240x256 [1] [0] [0] [1] [] []
  dot_S240x256_S256x256_S240x256_1_0_0_1_n_n_wf : DotDims.WF S240x256 S256x256 S240x256 [1] [0] [0] [1] [] []
  dot_S240x256_S256x128_S240x128_1_0_0_1_n_n_wf : DotDims.WF S240x256 S256x128 S240x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S240x12000.size a ≤ S12000x12000.size a
  hwx0_0 : ∀ i : grid0.Coords, EltTy.bits .bf16 = 32 ∨ (Rect.block (s := S12000x12000) S240x12000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12000x256.size a ≤ S12000x256.size a
  hwx0_1 : ∀ i : grid0.Coords, EltTy.bits .bf16 = 32 ∨ (Rect.block (s := S12000x256) S12000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S240x256.size a ≤ S12000x256.size a
  hwx0_4 : ∀ i : grid0.Coords, EltTy.bits .bf16 = 32 ∨ (Rect.block (s := S12000x256) S240x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S240x12000.size a ≤ S12000x12000.size a
  hwx1_0 : ∀ i : grid1.Coords, EltTy.bits .bf16 = 32 ∨ (Rect.block (s := S12000x12000) S240x12000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12000x256.size a ≤ S12000x256.size a
  hwx1_1 : ∀ i : grid1.Coords, EltTy.bits .bf16 = 32 ∨ (Rect.block (s := S12000x256) S12000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S240x256.size a ≤ S12000x256.size a
  hwx1_4 : ∀ i : grid1.Coords, EltTy.bits .bf16 = 32 ∨ (Rect.block (s := S12000x256) S240x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S240x12000.size a ≤ S12000x12000.size a
  hwx2_0 : ∀ i : grid2.Coords, EltTy.bits .bf16 = 32 ∨ (Rect.block (s := S12000x12000) S240x12000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12000x256.size a ≤ S12000x256.size a
  hwx2_1 : ∀ i : grid2.Coords, EltTy.bits .bf16 = 32 ∨ (Rect.block (s := S12000x256) S12000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S240x128.size a ≤ S12000x128.size a
  hwx2_4 : ∀ i : grid2.Coords, EltTy.bits .f32 = 32 ∨ (Rect.block (s := S12000x128) S240x128.size (cc2_transform_4 i) (hinb2_4 i)).WholeWords (EltTy.packing .f32)

variable [Facts₀]

def dot_S240x12000_S12000x256_S240x256_1_0_0_1_n_n : DotDims S240x12000 S12000x256 S240x256 where
  lhsContracting := [1]
  rhsContracting := [0]
  lhsNonContracting := [0]
  rhsNonContracting := [1]
  lhsBatch := []
  rhsBatch := []
  wf := dot_S240x12000_S12000x256_S240x256_1_0_0_1_n_n_wf
def dot_S240x256_S256x256_S240x256_1_0_0_1_n_n : DotDims S240x256 S256x256 S240x256 where
  lhsContracting := [1]
  rhsContracting := [0]
  lhsNonContracting := [0]
  rhsNonContracting := [1]
  lhsBatch := []
  rhsBatch := []
  wf := dot_S240x256_S256x256_S240x256_1_0_0_1_n_n_wf
def dot_S240x256_S256x128_S240x128_1_0_0_1_n_n : DotDims S240x256 S256x128 S240x128 where
  lhsContracting := [1]
  rhsContracting := [0]
  lhsNonContracting := [0]
  rhsNonContracting := [1]
  lhsBatch := []
  rhsBatch := []
  wf := dot_S240x256_S256x128_S240x128_1_0_0_1_n_n_wf

abbrev win0_0 : Pipeline.Window sig grid0 :=
  Pipeline.Window.ofSpec (Memref.whole main_v0) S240x12000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S240x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S240x12000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S12000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S240x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S240x12000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S12000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S240x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S12000x12000 : Shape := ⟨2, ![12000, 12000]⟩
abbrev S12000x256 : Shape := ⟨2, ![12000, 256]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S_ : Shape := ⟨0, ![]⟩
abbrev S12000 : Shape := ⟨1, ![12000]⟩
abbrev S12000x1 : Shape := ⟨2, ![12000, 1]⟩
abbrev S12000x40 : Shape := ⟨2, ![12000, 40]⟩
abbrev S1x40 : Shape := ⟨2, ![1, 40]⟩

abbrev nBuf : Space → Nat
  | .hbm => 49
  | .vmem => 0
  | .smem => 0
  | _ => 0

abbrev bufTy : (tb : Table) → Fin (tcTables nBuf tb) → BufTy
  | .hbm, ⟨0, _⟩ => ⟨S12000x12000, .f32⟩
  | .hbm, ⟨1, _⟩ => ⟨S12000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S12000x256, .f32⟩
  | .hbm, ⟨9, _⟩ => ⟨S12000x256, .f32⟩
  | .hbm, ⟨10, _⟩ => ⟨S1x256, .f32⟩
  | .hbm, ⟨11, _⟩ => ⟨S12000x256, .f32⟩
  | .hbm, ⟨12, _⟩ => ⟨S12000x256, .f32⟩
  | .hbm, ⟨13, _⟩ => ⟨S_, .f32⟩
  | .hbm, ⟨14, _⟩ => ⟨S12000x256, .f32⟩
  | .hbm, ⟨15, _⟩ => ⟨S12000x256, .f32⟩
  | .hbm, ⟨16, _⟩ => ⟨S12000x256, .f32⟩
  | .hbm, ⟨17, _⟩ => ⟨S_, .f32⟩
  | .hbm, ⟨18, _⟩ => ⟨S12000, .f32⟩
  | .hbm, ⟨19, _⟩ => ⟨S12000x1, .f32⟩
  | .hbm, ⟨20, _⟩ => ⟨S12000x1, .f32⟩
  | .hbm, ⟨21, _⟩ => ⟨S_, .f32⟩
  | .hbm, ⟨22, _⟩ => ⟨S12000x1, .f32⟩
  | .hbm, ⟨23, _⟩ => ⟨S12000x1, .f32⟩
  | .hbm, ⟨24, _⟩ => ⟨S12000x256, .f32⟩
  | .hbm, ⟨25, _⟩ => ⟨S12000x256, .f32⟩
  | .hbm, ⟨26, _⟩ => ⟨S12000x256, .f32⟩
  | .hbm, ⟨27, _⟩ => ⟨S12000x256, .f32⟩
  | .hbm, ⟨28, _⟩ => ⟨S1x256, .f32⟩
  | .hbm, ⟨29, _⟩ => ⟨S12000x256, .f32⟩
  | .hbm, ⟨30, _⟩ => ⟨S12000x256, .f32⟩
  | .hbm, ⟨31, _⟩ => ⟨S_, .f32⟩
  | .hbm, ⟨32, _⟩ => ⟨S12000x256, .f32⟩
  | .hbm, ⟨33, _⟩ => ⟨S12000x256, .f32⟩
  | .hbm, ⟨34, _⟩ => ⟨S12000x256, .f32⟩
  | .hbm, ⟨35, _⟩ => ⟨S_, .f32⟩
  | .hbm, ⟨36, _⟩ => ⟨S12000, .f32⟩
  | .hbm, ⟨37, _⟩ => ⟨S12000x1, .f32⟩
  | .hbm, ⟨38, _⟩ => ⟨S12000x1, .f32⟩
  | .hbm, ⟨39, _⟩ => ⟨S_, .f32⟩
  | .hbm, ⟨40, _⟩ => ⟨S12000x1, .f32⟩
  | .hbm, ⟨41, _⟩ => ⟨S12000x1, .f32⟩
  | .hbm, ⟨42, _⟩ => ⟨S12000x256, .f32⟩
  | .hbm, ⟨43, _⟩ => ⟨S12000x256, .f32⟩
  | .hbm, ⟨44, _⟩ => ⟨S12000x256, .f32⟩
  | .hbm, ⟨45, _⟩ => ⟨S12000x40, .f32⟩
  | .hbm, ⟨46, _⟩ => ⟨S1x40, .f32⟩
  | .hbm, ⟨47, _⟩ => ⟨S12000x40, .f32⟩
  | .hbm, ⟨48, _⟩ => ⟨S12000x40, .f32⟩
  | _, _ => ⟨S12000x12000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S12000x256_0_1 : S1x256.BroadcastsInDim S12000x256 (![0, 1] : Fin 2 → Fin S12000x256.rank)
  bcast_S_S12000x256 : S_.BroadcastsInDim S12000x256 (![] : Fin 0 → Fin S12000x256.rank)
  reducesTo_S12000x256_S12000_d1 : S12000x256.ReducesTo [1] S12000
  h_S_ : 0 < S_.numel
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x256_0_1 : S12000x1.BroadcastsInDim S12000x256 (![0, 1] : Fin 2 → Fin S12000x256.rank)
  bcast_S40_S1x40_1 : S40.BroadcastsInDim S1x40 (![1] : Fin 1 → Fin S1x40.rank)
  bcast_S1x40_S12000x40_0_1 : S1x40.BroadcastsInDim S12000x40 (![0, 1] : Fin 2 → Fin S12000x40.rank)
  dot_S12000x12000_S12000x256_S12000x256_1_0_0_1_n_n_wf : DotDims.WF S12000x12000 S12000x256 S12000x256 [1] [0] [0] [1] [] []
  dot_S12000x256_S256x256_S12000x256_1_0_0_1_n_n_wf : DotDims.WF S12000x256 S256x256 S12000x256 [1] [0] [0] [1] [] []
  dot_S12000x256_S256x40_S12000x40_1_0_0_1_n_n_wf : DotDims.WF S12000x256 S256x40 S12000x40 [1] [0] [0] [1] [] []

variable [Facts₀]

def dot_S12000x12000_S12000x256_S12000x256_1_0_0_1_n_n : DotDims S12000x12000 S12000x256 S12000x256 where
  lhsContracting := [1]
  rhsContracting := [0]
  lhsNonContracting := [0]
  rhsNonContracting := [1]
  lhsBatch := []
  rhsBatch := []
  wf := dot_S12000x12000_S12000x256_S12000x256_1_0_0_1_n_n_wf
def dot_S12000x256_S256x256_S12000x256_1_0_0_1_n_n : DotDims S12000x256 S256x256 S12000x256 where
  lhsContracting := [1]
  rhsContracting := [0]
  lhsNonContracting := [0]
  rhsNonContracting := [1]
  lhsBatch := []
  rhsBatch := []
  wf := dot_S12000x256_S256x256_S12000x256_1_0_0_1_n_n_wf
def dot_S12000x256_S256x40_S12000x40_1_0_0_1_n_n : DotDims S12000x256 S256x40 S12000x40 where
  lhsContracting := [1]
  rhsContracting := [0]
  lhsNonContracting := [0]
  rhsNonContracting := [1]
  lhsBatch := []
  rhsBatch := []
  wf := dot_S12000x256_S256x40_S12000x40_1_0_0_1_n_n_wf

class Facts : Prop extends Facts₀ where

variable [Facts]
-- ==== Proof.KernelRun.lean ====
/-
  The idealized kernel's run with its result named.

  Every weakly fair execution of the program ends, without a fault, with each buffer the program does not scope at
  the contents the last boundary of its segments holds (host operations, the first layer's call, a host operation,
  the second layer's call, the host operations that pad the last weights and bias, the output layer's call, the
  final slice). Read at the result buffer and at the eight arguments, this is the run whose value the other
  modules compute: the result at the last boundary's contents, the arguments as launched.
-/
import proofs.«130437_j35330400977322_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents and the arguments as launched. -/
theorem run_result : θ_run defs (onTc (τ := τ) (main (F := F))) ⟨m, fun _ => 0, ρ⟩ (fun r => ∀ c : Dev nD,
      r.2.mem ((c.tc : Thread nD τ).loc main_v10) = W11 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v10 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.SageRun

end
-- ==== Proof.Spec.lean ====
/-
  The mathematics of the three message-passing layers, stated once, index by index, on the extended reals.

  For an adjacency matrix A (12000 × 12000), node features H (12000 × 256), weights W (256 × n) and a bias b (n):
  the aggregated feature of node r in channel c is  Σ_k A[r,k] · H[k,c];  the linear map then gives, in output
  channel j,  Σ_c agg[r,c] · W[c,j] + b[j].  A hidden layer clamps that at zero from below, takes the Euclidean
  norm of the clamped row, bounds the norm from below by a small positive constant, and divides the row by it.
  The last layer is the linear map alone, into 40 channels.

  Everything is written for ONE row of A at a time (`arow`), because a row of the result depends on A only through
  that row: a program that computes the result 240 rows at a time and one that computes it whole meet at this form.
-/
import Idealize.ShloMosaic.PureOps.Ideal
import Idealize.ShloMosaic.Lib.ValueIdx

noncomputable section

namespace Cert.SageSpec

open Idealize.ShloMosaic Idealize.ShloMosaic.ValueIdx

/-- A matrix of extended reals with literal extents. -/
abbrev Mat (a b : ℕ) := (⟨2, ![a, b]⟩ : Shape).Idx → EReal
/-- A vector of extended reals with a literal extent. -/
abbrev Row (a : ℕ) := (⟨1, ![a]⟩ : Shape).Idx → EReal

/-- The word of +0.0 and the word of the norm's lower bound (the f32 nearest 1e-12), as the extended reals they denote. -/
abbrev zeroW : EReal := Ideal.ofBits .f32 0x00000000#32
abbrev epsW : EReal := Ideal.ofBits .f32 0x2B8CBCCC#32

/-- Aggregation along one row of A: Σ_k arow[k] · H[k,c]. -/
def aggRow (arow : Fin 12000 → EReal) (H : Mat 12000 256) (c : Fin 256) : EReal :=
  ∑ k : Fin 12000, arow k * H (ix2 k c)

/-- The linear map of the aggregated row, with bias: Σ_c agg[c] · W[c,j] + b[j]. -/
def linRow {n : ℕ} (arow : Fin 12000 → EReal) (H : Mat 12000 256) (W : Mat 256 n) (brow : Fin n → EReal) (j : Fin n) : EReal :=
  (∑ c : Fin 256, aggRow arow H c * W (ix2 c j)) + brow j

/-- Clamped at zero from below. -/
def actRow (arow : Fin 12000 → EReal) (H : Mat 12000 256) (W : Mat 256 256) (brow : Fin 256 → EReal) (j : Fin 256) : EReal :=
  max (linRow arow H W brow j) zeroW

/-- The Euclidean norm of the clamped row, bounded below. -/
def normRow (arow : Fin 12000 → EReal) (H : Mat 12000 256) (W : Mat 256 256) (brow : Fin 256 → EReal) : EReal :=
  max (Ideal.sqrt (∑ j : Fin 256, actRow arow H W brow j * actRow arow H W brow j)) epsW

/-- One entry of a hidden layer's row. -/
def layerRow (arow : Fin 12000 → EReal) (H : Mat 12000 256) (W : Mat 256 256) (brow : Fin 256 → EReal) (j : Fin 256) : EReal :=
  Ideal.div (actRow arow H W brow j) (normRow arow H W brow)

/-- A hidden layer as a whole matrix. -/
def layer (A : Mat 12000 12000) (H : Mat 12000 256) (W : Mat 256 256) (b : Row 256) : Mat 12000 256 :=
  fun i => layerRow (fun k => A (ix2 (i 0) k)) H W (fun j => b (ix1 j)) (i 1)

/-- The output layer as a whole matrix. -/
def outLayer (A : Mat 12000 12000) (H : Mat 12000 256) (W : Mat 256 40) (b : Row 40) : Mat 12000 40 :=
  fun i => linRow (fun k => A (ix2 (i 0) k)) H W (fun j => b (ix1 j)) (i 1)

/-- The network: two hidden layers and the output layer. -/
def net (A : Mat 12000 12000) (X : Mat 12000 256) (W0 : Mat 256 256) (b0 : Row 256) (W1 : Mat 256 256) (b1 : Row 256)
    (W2 : Mat 256 40) (b2 : Row 40) : Mat 12000 40 :=
  outLayer A (layer A (layer A X W0 b0) W1 b1) W2 b2

end Cert.SageSpec

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«130437_j35330400977322_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.KernelBody.lean ====
/-
  What one grid step of each layer's kernel computes, read at an entry (p, q) of its 240-row output block.

  A step loads a block of 240 rows of the adjacency matrix, the whole feature matrix, the weights and the bias
  row. Its two matrix products, read at an entry, are the aggregation along row p of the block and the linear
  map of the aggregated row; the bias row broadcast down the block reads the bias at q; the clamp is a maximum with
  the zero word; the sum of squares along the row, kept as a unit column, square-rooted, bounded below and
  broadcast back along the row, reads row p's bounded norm at every q; the quotient and the change of format
  (the identity at exact arithmetic) finish the row. So the block's entry (p, q) is the layer's row formula of
  Spec.lean at the block's row p. The output layer's step is the two products and the bias alone, 128 columns wide.
-/
import proofs.«130437_j35330400977322_2_alg».proof.Proof.Gen.KernelIdeal.Skeleton
import proofs.«130437_j35330400977322_2_alg».proof.Proof.Spec
import proofs.«130437_j35330400977322_2_alg».proof.Proof.LibColumnOps
import proofs.«130437_j35330400977322_2_alg».proof.Proof.LibRowLayouts
import proofs.«130437_j35330400977322_2_alg».proof.Proof.LibMatmulIdx
import Idealize.ShloMosaic.Lib.Pipeline.Value
import Idealize.ShloMosaic.PureOps.Ideal.Laws

noncomputable section

namespace Cert.KernelIdeal.SageBody

open Cert.KernelIdeal Cert.KernelIdeal.Facts₀ Idealize.ShloMosaic Idealize.ShloMosaic.ValueIdx Cert.SageSpec

/-! ## The three contractions' operand indices -/

abbrev dotAgg := dot_S240x12000_S12000x256_S240x256_1_0_0_1_n_n
abbrev dotLin := dot_S240x256_S256x256_S240x256_1_0_0_1_n_n
abbrev dotOut := dot_S240x256_S256x128_S240x128_1_0_0_1_n_n

theorem dotAgg_l0 (j : S240x256.Idx) (k : dotAgg.contr.Idx) : (dotAgg.lhsIdx j k 0).val = (j 0).val := by
  unfold DotDims.lhsIdx
  rw [dif_neg (show ¬(0 : Fin S240x12000.rank) ∈ dotAgg.lhsBatch by decide), dif_pos (show (0 : Fin S240x12000.rank) ∈ dotAgg.lhsNonContracting by decide)]
  rfl
theorem dotAgg_r1 (j : S240x256.Idx) (k : dotAgg.contr.Idx) : (dotAgg.rhsIdx j k 1).val = (j 1).val := by
  unfold DotDims.rhsIdx
  rw [dif_neg (show ¬(1 : Fin S12000x256.rank) ∈ dotAgg.rhsBatch by decide), dif_pos (show (1 : Fin S12000x256.rank) ∈ dotAgg.rhsNonContracting by decide)]
  rfl
theorem dotLin_l0 (j : S240x256.Idx) (k : dotLin.contr.Idx) : (dotLin.lhsIdx j k 0).val = (j 0).val := by
  unfold DotDims.lhsIdx
  rw [dif_neg (show ¬(0 : Fin S240x256.rank) ∈ dotLin.lhsBatch by decide), dif_pos (show (0 : Fin S240x256.rank) ∈ dotLin.lhsNonContracting by decide)]
  rfl
theorem dotLin_r1 (j : S240x256.Idx) (k : dotLin.contr.Idx) : (dotLin.rhsIdx j k 1).val = (j 1).val := by
  unfold DotDims.rhsIdx
  rw [dif_neg (show ¬(1 : Fin S256x256.rank) ∈ dotLin.rhsBatch by decide), dif_pos (show (1 : Fin S256x256.rank) ∈ dotLin.rhsNonContracting by decide)]
  rfl
theorem dotOut_l0 (j : S240x128.Idx) (k : dotOut.contr.Idx) : (dotOut.lhsIdx j k 0).val = (j 0).val := by
  unfold DotDims.lhsIdx
  rw [dif_neg (show ¬(0 : Fin S240x256.rank) ∈ dotOut.lhsBatch by decide), dif_pos (show (0 : Fin S240x256.rank) ∈ dotOut.lhsNonContracting by decide)]
  rfl
theorem dotOut_r1 (j : S240x128.Idx) (k : dotOut.contr.Idx) : (dotOut.rhsIdx j k 1).val = (j 1).val := by
  unfold DotDims.rhsIdx
  rw [dif_neg (show ¬(1 : Fin S256x128.rank) ∈ dotOut.rhsBatch by decide), dif_pos (show (1 : Fin S256x128.rank) ∈ dotOut.rhsNonContracting by decide)]
  rfl

/-! ## The pieces of a hidden layer's step -/

variable (a : FVec Ideal S240x12000 .bf16) (h : FVec Ideal S12000x256 .bf16)

/-- The aggregated block: the block of adjacency rows times the feature matrix. -/
def blkAgg : FVec Ideal S240x256 .f32 :=
  matmul dotAgg none (shapeCast S240x12000 a shapeCasts_S240x12000_S240x12000) (shapeCast S12000x256 h shapeCasts_S12000x256_S12000x256)
    (constant (F := Ideal) S240x256 .f32 0x00000000#32)

theorem blkAgg_at (p : Fin 240) (c : Fin 256) : blkAgg a h (ix2 p c) = aggRow (fun k => a (ix2 p k)) h c := by
  unfold blkAgg
  rw [shapeCast_self, shapeCast_self]
  exact LibMatmulIdx.matmul2_apply dotAgg rfl rfl dotAgg_l0 (fun j k => dotAgg.lhsIdx_val_of_single rfl j k)
    (fun j k => dotAgg.rhsIdx_val_of_single rfl j k) dotAgg_r1 none a h (ix2 p c)

variable (w : FVec Ideal S256x256 .f32) (b : FVec Ideal S1x256 .f32)

/-- The linear map of the aggregated block plus the bias row broadcast down the block. -/
def blkLin : FVec Ideal S240x256 .f32 :=
  addf (matmul dotLin none (blkAgg a h) w (constant (F := Ideal) S240x256 .f32 0x00000000#32))
    (broadcastTo S240x256 (shapeCast S1x256 b shapeCasts_S1x256_S1x256) broadcasts_S1x256_S240x256)

theorem blkLin_at (p : Fin 240) (q : Fin 256) :
    blkLin a h w b (ix2 p q) = linRow (fun k => a (ix2 p k)) h w (fun j => b (ix2 (0 : Fin 1) j)) q := by
  unfold blkLin linRow
  rw [shapeCast_self]
  show _ + _ = _
  refine congrArg₂ (· + ·) ?_ (LibRowLayouts.broadcastTo_row_apply b broadcasts_S1x256_S240x256 p q)
  refine (LibMatmulIdx.matmul2_apply dotLin rfl rfl dotLin_l0 (fun j k => dotLin.lhsIdx_val_of_single rfl j k)
    (fun j k => dotLin.rhsIdx_val_of_single rfl j k) dotLin_r1 none (blkAgg a h) w (ix2 p q)).trans ?_
  exact Finset.sum_congr rfl fun c _ => congrArg (· * w (ix2 c q)) (blkAgg_at a h p c)

/-- Clamped at zero from below. -/
def blkAct : FVec Ideal S240x256 .f32 :=
  maximumf (blkLin a h w b) (broadcast S240x256 (Scalar.ofBits (F := Ideal) .f32 0x00000000#32))

theorem blkAct_at (p : Fin 240) (q : Fin 256) :
    blkAct a h w b (ix2 p q) = actRow (fun k => a (ix2 p k)) h w (fun j => b (ix2 (0 : Fin 1) j)) q := by
  unfold blkAct actRow
  show max _ _ = _
  rw [blkLin_at]
  rfl

/-- Each row's bounded Euclidean norm, broadcast along the row. -/
def blkNorm : FVec Ideal S240x256 .f32 :=
  broadcastTo S240x256
    (maximumf (sqrt (shapeCast S240x1
        (multiReduction .add [1] S240 (mulf (blkAct a h w b) (blkAct a h w b)) 0x00000000#32 reduces_S240x256_S240 (.inl rfl) rfl)
        shapeCasts_S240_S240x1))
      (broadcast S240x1 (Scalar.ofBits (F := Ideal) .f32 0x2B8CBCCC#32)))
    broadcasts_S240x1_S240x256

theorem blkNorm_at (p : Fin 240) (q : Fin 256) :
    blkNorm a h w b (ix2 p q) = normRow (fun k => a (ix2 p k)) h w (fun j => b (ix2 (0 : Fin 1) j)) := by
  unfold blkNorm normRow
  refine (LibColumnOps.broadcastTo_col_apply _ broadcasts_S240x1_S240x256 p q).trans ?_
  show max (Ideal.sqrt _) _ = _
  refine congrArg₂ max (congrArg Ideal.sqrt ?_) rfl
  refine (LibKeepdims.shapeCast_col_apply _ shapeCasts_S240_S240x1 p (0 : Fin 1)).trans ?_
  refine (LibKeepdims.sum_axis1_apply (mulf (blkAct a h w b) (blkAct a h w b)) 0x00000000#32 reduces_S240x256_S240 (.inl rfl) rfl p).trans ?_
  refine Finset.sum_congr rfl fun j _ => ?_
  show blkAct a h w b (ix2 p j) * blkAct a h w b (ix2 p j) = _
  rw [blkAct_at]

/-- The first hidden layer's payload is these pieces, divided and re-formatted. -/
theorem pay0_eq (a' : Vec Ideal S240x12000 .bf16) (h' : Vec Ideal S12000x256 .bf16) (w' : Vec Ideal S256x256 .f32) (b' : Vec Ideal S1x256 .f32) :
    Gen.k0_pay1 (F := Ideal) a' h' w' b' = truncf .bf16 (divf (blkAct a' h' w' b') (blkNorm a' h' w' b')) bitsLt_bf16_f32 := rfl
/-- So is the second's. -/
theorem pay1_eq (a' : Vec Ideal S240x12000 .bf16) (h' : Vec Ideal S12000x256 .bf16) (w' : Vec Ideal S256x256 .f32) (b' : Vec Ideal S1x256 .f32) :
    Gen.k1_pay1 (F := Ideal) a' h' w' b' = truncf .bf16 (divf (blkAct a' h' w' b') (blkNorm a' h' w' b')) bitsLt_bf16_f32 := rfl

/-- A hidden layer's step at entry (p, q): the layer's row formula at the block's row p. -/
theorem hidden_at (p : Fin 240) (q : Fin 256) :
    truncf .bf16 (divf (blkAct a h w b) (blkNorm a h w b)) bitsLt_bf16_f32 (ix2 p q)
      = layerRow (fun k => a (ix2 p k)) h w (fun j => b (ix2 (0 : Fin 1) j)) q := by
  unfold layerRow
  show Ideal.div (blkAct a h w b (ix2 p q)) (blkNorm a h w b (ix2 p q)) = _
  rw [blkAct_at, blkNorm_at]

/-! ## The output layer's step -/

variable (w2 : FVec Ideal S256x128 .f32) (b2 : FVec Ideal S1x128 .f32)

theorem pay2_eq (a' : FVec Ideal S240x12000 .bf16) (h' : FVec Ideal S12000x256 .bf16) (w' : FVec Ideal S256x128 .f32) (b' : FVec Ideal S1x128 .f32) :
    Gen.k2_pay1 (F := Ideal) a' h' w' b'
      = addf (matmul dotOut none (blkAgg a' h') (shapeCast S256x128 w' shapeCasts_S256x128_S256x128) (constant (F := Ideal) S240x128 .f32 0x00000000#32))
          (broadcastTo S240x128 (shapeCast S1x128 b' shapeCasts_S1x128_S1x128) broadcasts_S1x128_S240x128) := rfl

/-- The output layer's step at entry (p, q) of its 128-column block: the linear map of the aggregated row. -/
theorem out_at (p : Fin 240) (q : Fin 128) :
    Gen.k2_pay1 (F := Ideal) a h w2 b2 (ix2 p q) = linRow (fun k => a (ix2 p k)) h w2 (fun j => b2 (ix2 (0 : Fin 1) j)) q := by
  rw [pay2_eq]
  unfold linRow
  rw [shapeCast_self, shapeCast_self]
  show _ + _ = _
  refine congrArg₂ (· + ·) ?_ (LibRowLayouts.broadcastTo_row_apply b2 broadcasts_S1x128_S240x128 p q)
  refine (LibMatmulIdx.matmul2_apply dotOut rfl rfl dotOut_l0 (fun j k => dotOut.lhsIdx_val_of_single rfl j k)
    (fun j k => dotOut.rhsIdx_val_of_single rfl j k) dotOut_r1 none (blkAgg a h) w2 (ix2 p q)).trans ?_
  exact Finset.sum_congr rfl fun c _ => congrArg (· * w2 (ix2 c q)) (blkAgg_at a h p c)

end Cert.KernelIdeal.SageBody

end
-- ==== Proof.Region0.lean ====
/-
  The first hidden layer's kernel call, from blocks to the whole array.

  Grid point t handles rows 240·t … 240·t + 239: it fetches that block of rows of the adjacency matrix and, whole,
  the feature matrix, the weights and the bias row, and writes back block t of the result. What it writes back is
  block t of the layer of Spec.lean applied to the arrays as the call finds them (an entry (p, q) of the block
  depends on the adjacency matrix only through row 240·t + p). The fifty blocks tile the 12000 rows, so after the
  call the result array is that layer, whole.
-/
import proofs.«130437_j35330400977322_2_alg».proof.Proof.Gen.KernelIdeal.Frame
import proofs.«130437_j35330400977322_2_alg».proof.Proof.KernelBody

set_option maxRecDepth 16384

noncomputable section

namespace Cert.KernelIdeal.SageRegions

open Cert.KernelIdeal Cert.KernelIdeal.Gen Idealize.ShloMosaic Idealize.ShloMosaic.TcCoe Idealize.ShloMosaic.ValueIdx Cert.SageSpec
open Idealize.SL.Sem

theorem zeros2 : (![0, 0] : Fin 2 → Nat) = fun _ => 0 := funext fun a => by fin_cases a <;> rfl

/-- An entry of a hidden layer's output block is the layer at the array index `i` the entry lands on, when the
    loaded blocks are the arrays' (the adjacency block's row being the array's row `i 0`). -/
theorem hidden_block_entry (A : Mat 12000 12000) (H : Mat 12000 256) (W : Mat 256 256) (B : Row 256)
    (a : FVec Ideal S240x12000 .bf16) (h : FVec Ideal S12000x256 .bf16) (w : FVec Ideal S256x256 .f32) (b : FVec Ideal S1x256 .f32)
    (y : (⟨2, ![240, 256]⟩ : Shape).Idx) (i : (⟨2, ![12000, 256]⟩ : Shape).Idx)
    (hq : (i 1).val = (y 1).val) (ha : ∀ k : Fin 12000, a (ix2 (y 0) k) = A (ix2 (i 0) k)) (hh : h = H) (hw : w = W)
    (hb : ∀ j : Fin 256, b (ix2 (0 : Fin 1) j) = B (ix1 j)) :
    truncf .bf16 (divf (SageBody.blkAct a h w b) (SageBody.blkNorm a h w b)) Facts₀.bitsLt_bf16_f32 y = layer A H W B i := by
  obtain ⟨p, q, rfl⟩ : ∃ (p : Fin 240) (q : Fin 256), y = ix2 p q := ⟨y 0, y 1, eq_ix2 y⟩
  rw [SageBody.hidden_at]
  unfold layer
  have hq' : i 1 = q := Fin.ext hq
  rw [hq', show (fun k => a (ix2 p k)) = fun k => A (ix2 (i 0) k) from funext ha,
    show (fun j => b (ix2 (0 : Fin 1) j)) = fun j => B (ix1 j) from funext hb, hh, hw]

/-! ## The first hidden layer's call -/

section Region0
variable (V : (c : Dev nD) → (b : Ref sig .tc) → Buf (Elt Ideal) ((c : Thread nD τ).loc b))

/-- The printed index maps over the grid: the adjacency window and the result window move together along the rows,
    point t at block t; every other window, and every window along its second axis, stays at block 0. -/
theorem idx0 : ∀ t : Fin cfg0.N, win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- The bias row as the call finds it, as a vector. -/
abbrev bias0 (c : Dev nD) : Row 256 := fun j => V c main_v2 (ix2 (0 : Fin 1) (j 0))

/-- What point t writes back is block t of the layer of the arrays as the call finds them. -/
theorem flushed0 (c : Dev nD) (t : Fin cfg0.N) :
    (dat0 V c).flushed 4 t = ((cfg0.win 4).blk t).view.read (Elt Ideal)
      (layer (V c main_v0) (V c main_v1) (V c main_arg2) (bias0 V c)) := by
  show (cfg0.win 4).cut (grid0.coords t) ((dat0 V c).after 4 t) = _
  rw [after0_4]
  unfold out0_4
  rw [View.canon_unit_zero zeros2]
  simp only [View.ld_unit_zero (S := S240x12000) zeros2, View.ld_unit_zero (S := S12000x256) zeros2,
    View.ld_unit_zero (S := S256x256) zeros2, View.ld_unit_zero (S := S1x256) zeros2]
  rw [SageBody.pay0_eq]
  obtain ⟨e00, e01, e10, e11, e20, e21, e30, e31, e41, e40⟩ := idx0 t
  funext j
  refine hidden_block_entry (V c main_v0) (V c main_v1) (V c main_arg2) (bias0 V c)
    (iblk0 V c 0 t) (iblk0 V c 1 t) (iblk0 V c 2 t) (iblk0 V c 3 t) j (((cfg0.win 4).blk t).view.emb j) ?_ ?_ ?_ ?_ ?_
  · show win0_4.index t (1 : Fin 2) * 256 + 1 * (j 1).val = (j 1).val
    omega
  · intro k
    show V c main_v0 (((cfg0.win 0).blk t).view.emb (ix2 (j 0) k)) = _
    refine congrArg (V c main_v0) (funext fun a => Fin.ext ?_)
    match a with
    | ⟨0, _⟩ => show win0_0.index t (0 : Fin 2) * 240 + 1 * (j 0).val = win0_4.index t (0 : Fin 2) * 240 + 1 * (j 0).val; omega
    | ⟨1, _⟩ => show win0_0.index t (1 : Fin 2) * 12000 + 1 * k.val = k.val; omega
  · funext y
    show V c main_v1 (((cfg0.win 1).blk t).view.emb y) = V c main_v1 y
    refine congrArg (V c main_v1) (funext fun a => Fin.ext ?_)
    match a with
    | ⟨0, _⟩ => show win0_1.index t (0 : Fin 2) * 12000 + 1 * (y 0).val = (y 0).val; omega
    | ⟨1, _⟩ => show win0_1.index t (1 : Fin 2) * 256 + 1 * (y 1).val = (y 1).val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 256 + 1 * (y 0).val = (y 0).val; omega
    | ⟨1, _⟩ => show win0_2.index t (1 : Fin 2) * 256 + 1 * (y 1).val = (y 1).val; omega
  · intro q
    show V c main_v2 (((cfg0.win 3).blk t).view.emb (ix2 (0 : Fin 1) q)) = V c main_v2 (ix2 (0 : Fin 1) q)
    refine congrArg (V c main_v2) (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega

/-- An index of the result array is in point t's block iff each coordinate is in the block's range on its axis. -/
theorem mem_blk0 (t : Fin cfg0.N) (i : S12000x256.Idx) :
    i ∈ ((cfg0.win 4).blk t).view.set ↔ ∀ a : Fin 2, win0_4.index t a * S240x256.size a ≤ (i a).val ∧ (i a).val < win0_4.index t a * S240x256.size a + S240x256.size a := by
  show i ∈ ((View.whole main_v3).slice (win0_4.rect t)).set ↔ _
  rw [View.set_slice_whole, Rect.mem_set_unit]
  exact Iff.rfl

/-- Every row is in some point's block: row r in the block of point r / 240. -/
theorem cover0 (i : S12000x256.Idx) : ∃ t : Fin cfg0.N, (cfg0.win 4).flush t = true ∧ i ∈ ((cfg0.win 4).blk t).view.set := by
  have hN : cfg0.N = 50 := N_0
  have hi0 : (i 0).val < 12000 := (i 0).isLt
  have hi1 : (i 1).val < 256 := (i 1).isLt
  have ht : (i 0).val / 240 < cfg0.N := by rw [hN]; omega
  obtain ⟨-, -, -, -, -, -, -, -, e1, e0⟩ := idx0 ⟨(i 0).val / 240, ht⟩
  refine ⟨⟨(i 0).val / 240, ht⟩, flush0_4 _, ?_⟩
  rw [mem_blk0]
  intro a
  match a with
  | ⟨0, _⟩ =>
    show win0_4.index ⟨(i 0).val / 240, ht⟩ (0 : Fin 2) * 240 ≤ (i 0).val ∧ (i 0).val < win0_4.index ⟨(i 0).val / 240, ht⟩ (0 : Fin 2) * 240 + 240
    rw [e0]; show (i 0).val / 240 * 240 ≤ (i 0).val ∧ (i 0).val < (i 0).val / 240 * 240 + 240; omega
  | ⟨1, _⟩ =>
    show win0_4.index ⟨(i 0).val / 240, ht⟩ (1 : Fin 2) * 256 ≤ (i 1).val ∧ (i 1).val < win0_4.index ⟨(i 0).val / 240, ht⟩ (1 : Fin 2) * 256 + 256
    rw [e1]; omega

/-- After the call the result array is the layer of the arrays as the call found them. -/
theorem arr0 (c : Dev nD) :
    (dat0 V c).arrAt 4 cfg0.N = layer (V c main_v0) (V c main_v1) (V c main_arg2) (bias0 V c) :=
  (dat0 V c).arrAt_eq_of_cover 4 _ (fun t _ => flushed0 V c t) cover0

end Region0

end Cert.KernelIdeal.SageRegions

end
-- ==== Proof.Region1.lean ====
/-
  The second hidden layer's kernel call, from blocks to the whole array: the same schedule as the first one's
  (point t handles rows 240·t … 240·t + 239, every other operand whole), reading the first layer's result as its
  feature matrix. After the call its result array is the layer of Spec.lean applied to the arrays as the call finds them.
-/
import proofs.«130437_j35330400977322_2_alg».proof.Proof.Region0

set_option maxRecDepth 16384

noncomputable section

namespace Cert.KernelIdeal.SageRegions

open Cert.KernelIdeal Cert.KernelIdeal.Gen Idealize.ShloMosaic Idealize.ShloMosaic.TcCoe Idealize.ShloMosaic.ValueIdx Cert.SageSpec
open Idealize.SL.Sem

/-! ## The second hidden layer's call -/

section Region1
variable (V : (c : Dev nD) → (b : Ref sig .tc) → Buf (Elt Ideal) ((c : Thread nD τ).loc b))

/-- The printed index maps over the grid: the adjacency window and the result window move together along the rows,
    point t at block t; every other window, and every window along its second axis, stays at block 0. -/
theorem idx1 : ∀ t : Fin cfg1.N, win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) = t.val :=
  (by decide +kernel : ∀ t : Fin grid1.N, _)

/-- The bias row as the call finds it, as a vector. -/
abbrev bias1 (c : Dev nD) : Row 256 := fun j => V c main_v4 (ix2 (0 : Fin 1) (j 0))

/-- What point t writes back is block t of the layer of the arrays as the call finds them. -/
theorem flushed1 (c : Dev nD) (t : Fin cfg1.N) :
    (dat1 V c).flushed 4 t = ((cfg1.win 4).blk t).view.read (Elt Ideal)
      (layer (V c main_v0) (V c main_v3) (V c main_arg4) (bias1 V c)) := by
  show (cfg1.win 4).cut (grid1.coords t) ((dat1 V c).after 4 t) = _
  rw [after1_4]
  unfold out1_4
  rw [View.canon_unit_zero zeros2]
  simp only [View.ld_unit_zero (S := S240x12000) zeros2, View.ld_unit_zero (S := S12000x256) zeros2,
    View.ld_unit_zero (S := S256x256) zeros2, View.ld_unit_zero (S := S1x256) zeros2]
  rw [SageBody.pay1_eq]
  obtain ⟨e00, e01, e10, e11, e20, e21, e30, e31, e41, e40⟩ := idx1 t
  funext j
  refine hidden_block_entry (V c main_v0) (V c main_v3) (V c main_arg4) (bias1 V c)
    (iblk1 V c 0 t) (iblk1 V c 1 t) (iblk1 V c 2 t) (iblk1 V c 3 t) j (((cfg1.win 4).blk t).view.emb j) ?_ ?_ ?_ ?_ ?_
  · show win1_4.index t (1 : Fin 2) * 256 + 1 * (j 1).val = (j 1).val
    omega
  · intro k
    show V c main_v0 (((cfg1.win 0).blk t).view.emb (ix2 (j 0) k)) = _
    refine congrArg (V c main_v0) (funext fun a => Fin.ext ?_)
    match a with
    | ⟨0, _⟩ => show win1_0.index t (0 : Fin 2) * 240 + 1 * (j 0).val = win1_4.index t (0 : Fin 2) * 240 + 1 * (j 0).val; omega
    | ⟨1, _⟩ => show win1_0.index t (1 : Fin 2) * 12000 + 1 * k.val = k.val; omega
  · funext y
    show V c main_v3 (((cfg1.win 1).blk t).view.emb y) = V c main_v3 y
    refine congrArg (V c main_v3) (funext fun a => Fin.ext ?_)
    match a with
    | ⟨0, _⟩ => show win1_1.index t (0 : Fin 2) * 12000 + 1 * (y 0).val = (y 0).val; omega
    | ⟨1, _⟩ => show win1_1.index t (1 : Fin 2) * 256 + 1 * (y 1).val = (y 1).val; omega
  · funext y
    show V c main_arg4 (((cfg1.win 2).blk t).view.emb y) = V c main_arg4 y
    refine congrArg (V c main_arg4) (funext fun a => Fin.ext ?_)
    match a with
    | ⟨0, _⟩ => show win1_2.index t (0 : Fin 2) * 256 + 1 * (y 0).val = (y 0).val; omega
    | ⟨1, _⟩ => show win1_2.index t (1 : Fin 2) * 256 + 1 * (y 1).val = (y 1).val; omega
  · intro q
    show V c main_v4 (((cfg1.win 3).blk t).view.emb (ix2 (0 : Fin 1) q)) = V c main_v4 (ix2 (0 : Fin 1) q)
    refine congrArg (V c main_v4) (funext fun a => Fin.ext ?_)
    match a with
    | ⟨0, _⟩ => show win1_3.index t (0 : Fin 2) * 1 + 1 * 0 = 0; omega
    | ⟨1, _⟩ => show win1_3.index t (1 : Fin 2) * 256 + 1 * q.val = q.val; omega

/-- An index of the result array is in point t's block iff each coordinate is in the block's range on its axis. -/
theorem mem_blk1 (t : Fin cfg1.N) (i : S12000x256.Idx) :
    i ∈ ((cfg1.win 4).blk t).view.set ↔ ∀ a : Fin 2, win1_4.index t a * S240x256.size a ≤ (i a).val ∧ (i a).val < win1_4.index t a * S240x256.size a + S240x256.size a := by
  show i ∈ ((View.whole main_v5).slice (win1_4.rect t)).set ↔ _
  rw [View.set_slice_whole, Rect.mem_set_unit]
  exact Iff.rfl

/-- Every row is in some point's block: row r in the block of point r / 240. -/
theorem cover1 (i : S12000x256.Idx) : ∃ t : Fin cfg1.N, (cfg1.win 4).flush t = true ∧ i ∈ ((cfg1.win 4).blk t).view.set := by
  have hN : cfg1.N = 50 := N_1
  have hi0 : (i 0).val < 12000 := (i 0).isLt
  have hi1 : (i 1).val < 256 := (i 1).isLt
  have ht : (i 0).val / 240 < cfg1.N := by rw [hN]; omega
  obtain ⟨-, -, -, -, -, -, -, -, e1, e0⟩ := idx1 ⟨(i 0).val / 240, ht⟩
  refine ⟨⟨(i 0).val / 240, ht⟩, flush1_4 _, ?_⟩
  rw [mem_blk1]
  intro a
  match a with
  | ⟨0, _⟩ =>
    show win1_4.index ⟨(i 0).val / 240, ht⟩ (0 : Fin 2) * 240 ≤ (i 0).val ∧ (i 0).val < win1_4.index ⟨(i 0).val / 240, ht⟩ (0 : Fin 2) * 240 + 240
    rw [e0]; show (i 0).val / 240 * 240 ≤ (i 0).val ∧ (i 0).val < (i 0).val / 240 * 240 + 240; omega
  | ⟨1, _⟩ =>
    show win1_4.index ⟨(i 0).val / 240, ht⟩ (1 : Fin 2) * 256 ≤ (i 1).val ∧ (i 1).val < win1_4.index ⟨(i 0).val / 240, ht⟩ (1 : Fin 2) * 256 + 256
    rw [e1]; omega

/-- After the call the result array is the layer of the arrays as the call found them. -/
theorem arr1 (c : Dev nD) :
    (dat1 V c).arrAt 4 cfg1.N = layer (V c main_v0) (V c main_v3) (V c main_arg4) (bias1 V c) :=
  (dat1 V c).arrAt_eq_of_cover 4 _ (fun t _ => flushed1 V c t) cover1

end Region1

end Cert.KernelIdeal.SageRegions

end
-- ==== Proof.Region2.lean ====
/-
  The output layer's kernel call, from blocks to the whole array.

  The schedule is the hidden layers': point t handles rows 240·t … 240·t + 239 and fetches every other operand
  whole. The step computes the aggregation and the linear map, 128 columns wide (the 40 columns of the last
  weights and bias, padded), with no clamp and no normalisation. After the call its result array is, at (r, j),
  the linear map of row r's aggregated features at column j of the arrays as the call finds them.
-/
import proofs.«130437_j35330400977322_2_alg».proof.Proof.Region0

set_option maxRecDepth 16384

noncomputable section

namespace Cert.KernelIdeal.SageRegions

open Cert.KernelIdeal Cert.KernelIdeal.Gen Idealize.ShloMosaic Idealize.ShloMosaic.TcCoe Idealize.ShloMosaic.ValueIdx Cert.SageSpec
open Idealize.SL.Sem

/-- The output layer over 128 columns, as a whole matrix. -/
def wideOut (A : Mat 12000 12000) (H : Mat 12000 256) (W : Mat 256 128) (b : Row 128) : Mat 12000 128 :=
  fun i => linRow (fun k => A (ix2 (i 0) k)) H W (fun j => b (ix1 j)) (i 1)

/-- An entry of the output layer's block is the wide output layer at the array index `i` the entry lands on, when
    the loaded blocks are the arrays'. -/
theorem out_block_entry (A : Mat 12000 12000) (H : Mat 12000 256) (W : Mat 256 128) (B : Row 128)
    (a : FVec Ideal S240x12000 .bf16) (h : FVec Ideal S12000x256 .bf16) (w : FVec Ideal S256x128 .f32) (b : FVec Ideal S1x128 .f32)
    (y : (⟨2, ![240, 128]⟩ : Shape).Idx) (i : (⟨2, ![12000, 128]⟩ : Shape).Idx)
    (hq : (i 1).val = (y 1).val) (ha : ∀ k : Fin 12000, a (ix2 (y 0) k) = A (ix2 (i 0) k)) (hh : h = H) (hw : w = W)
    (hb : ∀ j : Fin 128, b (ix2 (0 : Fin 1) j) = B (ix1 j)) :
    Gen.k2_pay1 (F := Ideal) a h w b y = wideOut A H W B i := by
  obtain ⟨p, q, rfl⟩ : ∃ (p : Fin 240) (q : Fin 128), y = ix2 p q := ⟨y 0, y 1, eq_ix2 y⟩
  rw [SageBody.out_at]
  unfold wideOut
  have hq' : i 1 = q := Fin.ext hq
  rw [hq', show (fun k => a (ix2 p k)) = fun k => A (ix2 (i 0) k) from funext ha,
    show (fun j => b (ix2 (0 : Fin 1) j)) = fun j => B (ix1 j) from funext hb, hh, hw]

section Region2
variable (V : (c : Dev nD) → (b : Ref sig .tc) → Buf (Elt Ideal) ((c : Thread nD τ).loc b))

/-- The printed index maps over the grid: the adjacency window and the result window move together along the rows,
    point t at block t; every other window, and every window along its second axis, stays at block 0. -/
theorem idx2 : ∀ t : Fin cfg2.N, win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) = t.val :=
  (by decide +kernel : ∀ t : Fin grid2.N, _)

/-- The padded bias row as the call finds it, as a vector. -/
abbrev bias2 (c : Dev nD) : Row 128 := fun j => V c main_v8 (ix2 (0 : Fin 1) (j 0))

/-- What point t writes back is block t of the wide output layer of the arrays as the call finds them. -/
theorem flushed2 (c : Dev nD) (t : Fin cfg2.N) :
    (dat2 V c).flushed 4 t = ((cfg2.win 4).blk t).view.read (Elt Ideal)
      (wideOut (V c main_v0) (V c main_v5) (V c main_v6) (bias2 V c)) := by
  show (cfg2.win 4).cut (grid2.coords t) ((dat2 V c).after 4 t) = _
  rw [after2_4]
  unfold out2_4
  rw [View.canon_unit_zero zeros2]
  simp only [View.ld_unit_zero (S := S240x12000) zeros2, View.ld_unit_zero (S := S12000x256) zeros2,
    View.ld_unit_zero (S := S256x128) zeros2, View.ld_unit_zero (S := S1x128) zeros2]
  obtain ⟨e00, e01, e10, e11, e20, e21, e30, e31, e41, e40⟩ := idx2 t
  funext j
  refine out_block_entry (V c main_v0) (V c main_v5) (V c main_v6) (bias2 V c)
    (iblk2 V c 0 t) (iblk2 V c 1 t) (iblk2 V c 2 t) (iblk2 V c 3 t) j (((cfg2.win 4).blk t).view.emb j) ?_ ?_ ?_ ?_ ?_
  · show win2_4.index t (1 : Fin 2) * 128 + 1 * (j 1).val = (j 1).val
    omega
  · intro k
    show V c main_v0 (((cfg2.win 0).blk t).view.emb (ix2 (j 0) k)) = _
    refine congrArg (V c main_v0) (funext fun a => Fin.ext ?_)
    match a with
    | ⟨0, _⟩ => show win2_0.index t (0 : Fin 2) * 240 + 1 * (j 0).val = win2_4.index t (0 : Fin 2) * 240 + 1 * (j 0).val; omega
    | ⟨1, _⟩ => show win2_0.index t (1 : Fin 2) * 12000 + 1 * k.val = k.val; omega
  · funext y
    show V c main_v5 (((cfg2.win 1).blk t).view.emb y) = V c main_v5 y
    refine congrArg (V c main_v5) (funext fun a => Fin.ext ?_)
    match a with
    | ⟨0, _⟩ => show win2_1.index t (0 : Fin 2) * 12000 + 1 * (y 0).val = (y 0).val; omega
    | ⟨1, _⟩ => show win2_1.index t (1 : Fin 2) * 256 + 1 * (y 1).val = (y 1).val; omega
  · funext y
    show V c main_v6 (((cfg2.win 2).blk t).view.emb y) = V c main_v6 y
    refine congrArg (V c main_v6) (funext fun a => Fin.ext ?_)
    match a with
    | ⟨0, _⟩ => show win2_2.index t (0 : Fin 2) * 256 + 1 * (y 0).val = (y 0).val; omega
    | ⟨1, _⟩ => show win2_2.index t (1 : Fin 2) * 128 + 1 * (y 1).val = (y 1).val; omega
  · intro q
    show V c main_v8 (((cfg2.win 3).blk t).view.emb (ix2 (0 : Fin 1) q)) = V c main_v8 (ix2 (0 : Fin 1) q)
    refine congrArg (V c main_v8) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega

/-- An index of the result array is in point t's block iff each coordinate is in the block's range on its axis. -/
theorem mem_blk2 (t : Fin cfg2.N) (i : S12000x128.Idx) :
    i ∈ ((cfg2.win 4).blk t).view.set ↔ ∀ a : Fin 2, win2_4.index t a * S240x128.size a ≤ (i a).val ∧ (i a).val < win2_4.index t a * S240x128.size a + S240x128.size a := by
  show i ∈ ((View.whole main_v9).slice (win2_4.rect t)).set ↔ _
  rw [View.set_slice_whole, Rect.mem_set_unit]
  exact Iff.rfl

/-- Every row is in some point's block: row r in the block of point r / 240. -/
theorem cover2 (i : S12000x128.Idx) : ∃ t : Fin cfg2.N, (cfg2.win 4).flush t = true ∧ i ∈ ((cfg2.win 4).blk t).view.set := by
  have hN : cfg2.N = 50 := N_2
  have hi0 : (i 0).val < 12000 := (i 0).isLt
  have hi1 : (i 1).val < 128 := (i 1).isLt
  have ht : (i 0).val / 240 < cfg2.N := by rw [hN]; omega
  obtain ⟨-, -, -, -, -, -, -, -, e1, e0⟩ := idx2 ⟨(i 0).val / 240, ht⟩
  refine ⟨⟨(i 0).val / 240, ht⟩, flush2_4 _, ?_⟩
  rw [mem_blk2]
  intro a
  match a with
  | ⟨0, _⟩ =>
    show win2_4.index ⟨(i 0).val / 240, ht⟩ (0 : Fin 2) * 240 ≤ (i 0).val ∧ (i 0).val < win2_4.index ⟨(i 0).val / 240, ht⟩ (0 : Fin 2) * 240 + 240
    rw [e0]; show (i 0).val / 240 * 240 ≤ (i 0).val ∧ (i 0).val < (i 0).val / 240 * 240 + 240; omega
  | ⟨1, _⟩ =>
    show win2_4.index ⟨(i 0).val / 240, ht⟩ (1 : Fin 2) * 128 ≤ (i 1).val ∧ (i 1).val < win2_4.index ⟨(i 0).val / 240, ht⟩ (1 : Fin 2) * 128 + 128
    rw [e1]; omega

/-- After the call the result array is the wide output layer of the arrays as the call found them. -/
theorem arr2 (c : Dev nD) :
    (dat2 V c).arrAt 4 cfg2.N = wideOut (V c main_v0) (V c main_v5) (V c main_v6) (bias2 V c) :=
  (dat2 V c).arrAt_eq_of_cover 4 _ (fun t _ => flushed2 V c t) cover2

end Region2

end Cert.KernelIdeal.SageRegions

end
-- ==== Proof.KernelValue.lean ====
/-
  The idealized kernel's result as a function of its arguments.

  Between the launch and the return the program's buffers pass through eleven boundaries. The first call finds the
  adjacency matrix and the node features re-formatted (the identity at exact arithmetic), the first weights as
  launched and the first bias recast as a 1 × 256 row: its result array is the first hidden layer of the arguments.
  The second call finds the adjacency matrix unchanged, the first layer's result as its features, the second weights
  and the second bias recast: its result is the second hidden layer. The third call finds the last weights and bias
  padded with zeros from 40 to 128 columns: its result is the linear map of the aggregated second layer over 128
  columns. The final slice keeps columns 0 … 39, where a padded column of the weights or an entry of the padded bias
  is the argument's own: the program's result is the network of Spec.lean applied to its arguments.
-/
import proofs.«130437_j35330400977322_2_alg».proof.Proof.Region1
import proofs.«130437_j35330400977322_2_alg».proof.Proof.Region2
import Idealize.ShloMosaic.Lib.StableHlo.Run
import Idealize.ShloMosaic.Lib.KernelVsHost

set_option maxRecDepth 16384

noncomputable section

namespace Cert.KernelIdeal.SageValue

open Cert.KernelIdeal Cert.KernelIdeal.Gen Idealize.ShloMosaic Idealize.ShloMosaic.TcCoe Idealize.ShloMosaic.ValueIdx Cert.SageSpec
open Idealize.SL.Sem Idealize.ShloMosaic.StableHlo

variable (m : (ℓ : Loc nD τ sig) → Buf (Elt Ideal) ℓ) (ρ : Dev nD → PrngReg)

/-- The arguments as launched, as matrices and vectors of extended reals. -/
abbrev argA (c : Dev nD) : Mat 12000 12000 := m ((c : Thread nD τ).loc main_arg0)
abbrev argX (c : Dev nD) : Mat 12000 256 := m ((c : Thread nD τ).loc main_arg1)
abbrev argW0 (c : Dev nD) : Mat 256 256 := m ((c : Thread nD τ).loc main_arg2)
abbrev argB0 (c : Dev nD) : Row 256 := m ((c : Thread nD τ).loc main_arg3)
abbrev argW1 (c : Dev nD) : Mat 256 256 := m ((c : Thread nD τ).loc main_arg4)
abbrev argB1 (c : Dev nD) : Row 256 := m ((c : Thread nD τ).loc main_arg5)
abbrev argW2 (c : Dev nD) : Mat 256 40 := m ((c : Thread nD τ).loc main_arg6)
abbrev argB2 (c : Dev nD) : Row 40 := m ((c : Thread nD τ).loc main_arg7)

/-- A 256-vector recast as a 1 × 256 row, read at (0, j): the vector at j. -/
theorem row_of_vec {n : ℕ} (v : Row n) (h : (⟨1, ![n]⟩ : Shape).ShapeCasts ⟨2, ![1, n]⟩) (j : Fin n) :
    shapeCast ⟨2, ![1, n]⟩ v h (ix2 (0 : Fin 1) j) = v (ix1 j) := by
  refine shapeCast_apply v h _ (ix1 j) ?_
  rw [Shape.rowMajor_val_one, Shape.rowMajor_val_two]
  show j.val = 0 * n + j.val
  omega

/-! ## The first call -/

theorem entry0_adj (c : Dev nD) : (V1 m ρ c main_v0 : Mat 12000 12000) = argA m c := by
  show StableHlo.after hostOps0 (W0 m ρ c) (Proc.devRef .tc main_v0) = _
  after_results
  rfl

theorem entry0_x (c : Dev nD) : (V1 m ρ c main_v1 : Mat 12000 256) = argX m c := by
  show StableHlo.after hostOps0 (W0 m ρ c) (Proc.devRef .tc main_v1) = _
  after_results
  rfl

theorem entry0_w (c : Dev nD) : (V1 m ρ c main_arg2 : Mat 256 256) = argW0 m c := by
  show StableHlo.after hostOps0 (W0 m ρ c) (Proc.devRef .tc main_arg2) = _
  after_results

theorem entry0_bias (c : Dev nD) : SageRegions.bias0 (V1 m ρ) c = argB0 m c := by
  funext j
  show StableHlo.after hostOps0 (W0 m ρ c) (Proc.devRef .tc main_v2) (ix2 (0 : Fin 1) (j 0)) = _
  after_results
  show shapeCast S1x256 (argB0 m c) _ (ix2 (0 : Fin 1) (j 0)) = argB0 m c j
  exact (row_of_vec (argB0 m c) _ (j 0)).trans (congrArg (argB0 m c) (eq_ix1 j).symm)

/-- After the first call its result array is the first hidden layer of the arguments. -/
theorem layer0_value (c : Dev nD) :
    (dat0 (V1 m ρ) c).arrAt 4 cfg0.N = layer (argA m c) (argX m c) (argW0 m c) (argB0 m c) := by
  rw [SageRegions.arr0, entry0_adj, entry0_x, entry0_w, entry0_bias]

/-! ## The second call -/

/-- A launch argument that neither the first stretch of host operations nor the first call writes. -/
theorem keeps_W2 (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem entry1_adj (c : Dev nD) : (V3 m ρ c main_v0 : Mat 12000 12000) = argA m c := by
  show StableHlo.after hostOps1 (W2 m ρ c) (Proc.devRef .tc main_v0) = _
  after_results
  exact ((W2_arr m ρ c 0).trans (((dat0 (V1 m ρ) c).arrAt_in 0 rfl _).trans (A_eq0 (V1 m ρ) c 0))).trans (entry0_adj m ρ c)

theorem entry1_feat (c : Dev nD) :
    (V3 m ρ c main_v3 : Mat 12000 256) = layer (argA m c) (argX m c) (argW0 m c) (argB0 m c) := by
  show StableHlo.after hostOps1 (W2 m ρ c) (Proc.devRef .tc main_v3) = _
  after_results
  exact (W2_arr m ρ c 4).trans (layer0_value m ρ c)

theorem entry1_w (c : Dev nD) : (V3 m ρ c main_arg4 : Mat 256 256) = argW1 m c := by
  show StableHlo.after hostOps1 (W2 m ρ c) (Proc.devRef .tc main_arg4) = _
  after_results
  exact keeps_W2 m ρ c main_arg4 (by decide) (by after_results)

theorem entry1_bias (c : Dev nD) : SageRegions.bias1 (V3 m ρ) c = argB1 m c := by
  funext j
  show StableHlo.after hostOps1 (W2 m ρ c) (Proc.devRef .tc main_v4) (ix2 (0 : Fin 1) (j 0)) = _
  after_results
  rw [keeps_W2 m ρ c main_arg5 (by decide) (by after_results)]
  show shapeCast S1x256 (argB1 m c) _ (ix2 (0 : Fin 1) (j 0)) = argB1 m c j
  exact (row_of_vec (argB1 m c) _ (j 0)).trans (congrArg (argB1 m c) (eq_ix1 j).symm)

/-- The first hidden layer of the arguments. -/
abbrev hidden0 (c : Dev nD) : Mat 12000 256 := layer (argA m c) (argX m c) (argW0 m c) (argB0 m c)

/-- After the second call its result array is the second hidden layer of the arguments. -/
theorem layer1_value (c : Dev nD) :
    (dat1 (V3 m ρ) c).arrAt 4 cfg1.N = layer (argA m c) (hidden0 m c) (argW1 m c) (argB1 m c) := by
  rw [SageRegions.arr1, entry1_adj, entry1_feat, entry1_w, entry1_bias]

/-! ## The output layer's call -/

/-- The second hidden layer of the arguments. -/
abbrev hidden1 (c : Dev nD) : Mat 12000 256 := layer (argA m c) (hidden0 m c) (argW1 m c) (argB1 m c)

/-- A launch argument that nothing up to the second call's exit writes. -/
theorem keeps_W4 (c : Dev nD) (b : Ref sig .tc) (hb0 : ∀ w, Pipeline.arrRef spec0 w ≠ b) (hb1 : ∀ w, Pipeline.arrRef spec1 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W4 m ρ c (Proc.devRef .tc b) = m ((c : Thread nD τ).loc b) :=
  (W4_of_ne m ρ c b hb1).trans (h1.trans (keeps_W2 m ρ c b hb0 h0))

theorem entry2_adj (c : Dev nD) : (V9 m ρ c main_v0 : Mat 12000 12000) = argA m c := by
  show StableHlo.after hostOps2_4 (StableHlo.after hostOps2_3 (StableHlo.after hostOps2_2 (StableHlo.after hostOps2_1
    (StableHlo.after hostOps2 (W4 m ρ c))))) (Proc.devRef .tc main_v0) = _
  after_results
  exact ((W4_arr m ρ c 0).trans (((dat1 (V3 m ρ) c).arrAt_in 0 rfl _).trans (A_eq1 (V3 m ρ) c 0))).trans (entry1_adj m ρ c)

theorem entry2_feat (c : Dev nD) : (V9 m ρ c main_v5 : Mat 12000 256) = hidden1 m c := by
  show StableHlo.after hostOps2_4 (StableHlo.after hostOps2_3 (StableHlo.after hostOps2_2 (StableHlo.after hostOps2_1
    (StableHlo.after hostOps2 (W4 m ρ c))))) (Proc.devRef .tc main_v5) = _
  after_results
  exact (W4_arr m ρ c 4).trans (layer1_value m ρ c)

/-- The padded weights at a column below 40: the last weights there. -/
theorem entry2_w_at (c : Dev nD) (k : Fin 256) (q : Fin 128) (j : Fin 40) (hq : q.val = j.val) :
    (V9 m ρ c main_v6 : Mat 256 128) (ix2 k q) = argW2 m c (ix2 k j) := by
  show StableHlo.after hostOps2_4 (StableHlo.after hostOps2_3 (StableHlo.after hostOps2_2 (StableHlo.after hostOps2_1
    (StableHlo.after hostOps2 (W4 m ρ c))))) (Proc.devRef .tc main_v6) (ix2 k q) = _
  after_results
  show pad S256x128 ![0, 0] ![0, 88] ![0, 0] (W4 m ρ c (Proc.devRef .tc main_arg6) : Mat 256 40)
    (sitofp (F := Ideal) .f32 (constantI S_ 32 0#32) : S_.Idx → EReal) pads_S256x40_S256x128_000_0880 h_S_ (ix2 k q) = _
  rw [keeps_W4 m ρ c main_arg6 (by decide) (by decide) (by after_results) (by after_results)]
  exact pad_apply_of_inside _ _ _ (argW2 m c) _ _ _ (ix2 k q) (ix2 k j) (fun a => by
    match a with
    | ⟨0, _⟩ => show k.val = 0 + k.val * (0 + 1); omega
    | ⟨1, _⟩ => show q.val = 0 + j.val * (0 + 1); omega)

/-- The padded bias row at a column below 40: the last bias there. -/
theorem entry2_bias_at (c : Dev nD) (q : Fin 128) (j : Fin 40) (hq : q.val = j.val) :
    SageRegions.bias2 (V9 m ρ) c (ix1 q) = argB2 m c (ix1 j) := by
  show StableHlo.after hostOps2_4 (StableHlo.after hostOps2_3 (StableHlo.after hostOps2_2 (StableHlo.after hostOps2_1
    (StableHlo.after hostOps2 (W4 m ρ c))))) (Proc.devRef .tc main_v8) (ix2 (0 : Fin 1) q) = _
  after_results
  show shapeCast S1x128 (pad S128 ![0] ![88] ![0] (W4 m ρ c (Proc.devRef .tc main_arg7) : Row 40)
    (sitofp (F := Ideal) .f32 (constantI S_ 32 0#32) : S_.Idx → EReal) pads_S40_S128_0880 h_S_) shapeCasts_S128_S1x128 (ix2 (0 : Fin 1) q) = _
  rw [keeps_W4 m ρ c main_arg7 (by decide) (by decide) (by after_results) (by after_results)]
  refine (row_of_vec _ _ q).trans ?_
  exact pad_apply_of_inside _ _ _ (argB2 m c) _ _ _ (ix1 q) (ix1 j) (fun a => by
    match a with
    | ⟨0, _⟩ => show q.val = 0 + j.val * (0 + 1); omega)

/-- The program's result buffer at the last boundary is the network of the arguments. -/
theorem result_value (c : Dev nD) :
    (W11 m ρ c (Proc.devRef .tc main_v10) : Mat 12000 40)
      = net (argA m c) (argX m c) (argW0 m c) (argB0 m c) (argW1 m c) (argB1 m c) (argW2 m c) (argB2 m c) := by
  funext i
  obtain ⟨r, j, rfl⟩ : ∃ (r : Fin 12000) (j : Fin 40), i = ix2 r j := ⟨i 0, i 1, eq_ix2 i⟩
  show StableHlo.after hostOps3 (W10 m ρ c) (Proc.devRef .tc main_v10) (ix2 r j) = _
  after_results
  have e : (W10 m ρ c (Proc.devRef .tc main_v9) : Mat 12000 128)
      = SageRegions.wideOut (V9 m ρ c main_v0) (V9 m ρ c main_v5) (V9 m ρ c main_v6) (SageRegions.bias2 (V9 m ρ) c) :=
    (W10_arr m ρ c 4).trans (SageRegions.arr2 (V9 m ρ) c)
  have hj : j.val < 128 := by have := j.isLt; omega
  refine (extractStridedSlice_apply _ _ _ (ix2 r j) (ix2 r (⟨j.val, hj⟩ : Fin 128)) (fun a => by
    match a with
    | ⟨0, _⟩ => show r.val = 0 + r.val; omega
    | ⟨1, _⟩ => show j.val = 0 + j.val; omega)).trans ?_
  rw [e]
  show linRow (fun k => V9 m ρ c main_v0 (ix2 r k)) (V9 m ρ c main_v5) (V9 m ρ c main_v6)
      (fun q => SageRegions.bias2 (V9 m ρ) c (ix1 q)) (⟨j.val, hj⟩ : Fin 128)
    = linRow (fun k => argA m c (ix2 r k)) (hidden1 m c) (argW2 m c) (fun q => argB2 m c (ix1 q)) j
  rw [entry2_adj, entry2_feat]
  unfold linRow
  exact congrArg₂ (· + ·)
    (Finset.sum_congr rfl fun c' _ => congrArg (aggRow (fun k => argA m c (ix2 r k)) (hidden1 m c) c' * ·) (entry2_w_at m ρ c c' _ j rfl))
    (entry2_bias_at m ρ c _ j rfl)

end Cert.KernelIdeal.SageValue

end
-- ==== Proof.LibIndexEq.lean ====
/-
  An index of a one- or two-axis shape is determined by its coordinates: if the coordinates of `f` are those of
  `a` (and `b`), then `f` is the index built from them. Used to identify an index that a program spells by a
  case split on the axis with the index built from literal coordinates.
-/
import Idealize.ShloMosaic.Lib.ValueIdx

namespace LibIndexEq

open Idealize.ShloMosaic Idealize.ShloMosaic.ValueIdx

/-- A two-axis index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A one-axis index with coordinate `a` is `ix1 a`. -/
theorem idx1_eq {n : ℕ} (f : (⟨1, ![n]⟩ : Shape).Idx) (a : Fin n) (h0 : (f 0).val = a.val) : f = ix1 a :=
  funext fun d => Fin.ext (by
    match d with
    | ⟨0, _⟩ => exact h0)

end LibIndexEq
-- ==== Proof.RefValue.lean ====
/-
  The reference program computes the network of Spec.lean.

  Its first hidden layer is read one operation at a time, at a row r and a channel j: the two matrix products are
  the sums of the aggregation and of the linear map, the two broadcasts of the bias read the bias at j, the clamp is
  a maximum with the zero word, the row's sum of squares starts from the zero word (which is 0, so it is the plain
  sum), the square root, the lower bound and the quotient follow. The second hidden layer is the same composition
  of operations applied to the first layer's result, and the output layer is the aggregation and the linear map alone.
-/
import proofs.«130437_j35330400977322_2_alg».proof.Proof.Gen.ReferenceIdeal.Read
import proofs.«130437_j35330400977322_2_alg».proof.Proof.Spec
import proofs.«130437_j35330400977322_2_alg».proof.Proof.LibIndexEq

noncomputable section

namespace Cert.ReferenceIdeal.RefSage

open Cert.ReferenceIdeal Cert.ReferenceIdeal.Read Idealize.ShloMosaic Idealize.ShloMosaic.ValueIdx Cert.SageSpec LibIndexEq

variable (x0 : (⟨S12000x12000, .f32⟩ : BufTy).Contents (Elt Ideal)) (x1 : (⟨S12000x256, .f32⟩ : BufTy).Contents (Elt Ideal))
  (x2 : (⟨S256x256, .f32⟩ : BufTy).Contents (Elt Ideal)) (x3 : (⟨S256, .f32⟩ : BufTy).Contents (Elt Ideal))

/-- The first product at (r, c): the aggregation along row r of the adjacency matrix. -/
theorem agg_at (r : Fin 12000) (c : Fin 256) :
    val_main_v0 (F := Ideal) x0 x1 (ix2 r c) = aggRow (fun k => x0 (ix2 r k)) x1 c := by
  rw [val_main_v0_apply]
  refine Finset.sum_congr rfl fun k _ => ?_
  rw [idx2_eq (lidx_main_v0 (ix2 r c) k) r k rfl rfl, idx2_eq (ridx_main_v0 (ix2 r c) k) k c rfl rfl]

/-- The second product plus the broadcast bias at (r, j): the linear map of the aggregated row. -/
theorem lin_at (r : Fin 12000) (j : Fin 256) :
    val_main_v4 (F := Ideal) x0 x1 x2 x3 (ix2 r j) = linRow (fun k => x0 (ix2 r k)) x1 x2 (fun j => x3 (ix1 j)) j := by
  rw [val_main_v4_apply, val_main_v1_apply, val_main_v3_apply, val_main_v2_apply, Ideal.addf_def]
  unfold linRow
  refine congrArg₂ (· + ·) (Finset.sum_congr rfl fun k _ => ?_) (congrArg x3 (idx1_eq _ j rfl))
  rw [idx2_eq (lidx_main_v1 (ix2 r j) k) r k rfl rfl, idx2_eq (ridx_main_v1 (ix2 r j) k) k j rfl rfl, agg_at]

/-- The clamp at (r, j). -/
theorem act_at (r : Fin 12000) (j : Fin 256) :
    val_main_v5 (F := Ideal) x0 x1 x2 x3 (ix2 r j) = actRow (fun k => x0 (ix2 r k)) x1 x2 (fun j => x3 (ix1 j)) j := by
  rw [val_main_v5_apply, val_main_call0_v0_apply, val_main_call0_cst_apply, lin_at, Ideal.maximumf_def]
  rfl

/-- The bounded norm of row r, read at the kept unit column. -/
theorem norm_at (r : Fin 12000) (z : Fin 1) :
    val_main_v11 (F := Ideal) x0 x1 x2 x3 (ix2 r z) = normRow (fun k => x0 (ix2 r k)) x1 x2 (fun j => x3 (ix1 j)) := by
  rw [val_main_v11_apply, val_main_v10_apply, val_main_cst_0_apply, val_main_v9_apply, val_main_v8_apply, val_main_v7_apply,
    val_main_cst_apply, Ideal.maximumf_def, Ideal.hostUnary_sqrt_def]
  unfold normRow
  refine congrArg₂ max (congrArg Ideal.sqrt ?_) rfl
  show Ideal.ofBits .f32 0x00000000#32 + _ = _
  rw [Ideal.ofBits_zero_f32, zero_add]
  refine Finset.sum_congr rfl fun k _ => ?_
  rw [idx2_eq (idx_main_v7 (idx_main_v8 (ix2 r z)) k) r k rfl rfl, val_main_v6_apply, act_at, Ideal.mulf_def]

/-- The first hidden layer. -/
theorem layer0 : val_main_v13 (F := Ideal) x0 x1 x2 x3 = layer x0 x1 x2 x3 := by
  funext i
  obtain ⟨r, j, rfl⟩ : ∃ (r : Fin 12000) (j : Fin 256), i = ix2 r j := ⟨i 0, i 1, eq_ix2 i⟩
  show _ = layerRow (fun k => x0 (ix2 r k)) x1 x2 (fun j => x3 (ix1 j)) j
  rw [val_main_v13_apply, val_main_v12_apply, act_at, idx2_eq (idx_main_v12 (ix2 r j)) r (0 : Fin 1) rfl rfl, norm_at,
    Ideal.hostDivf_def]
  rfl

variable (x4 : (⟨S256x256, .f32⟩ : BufTy).Contents (Elt Ideal)) (x5 : (⟨S256, .f32⟩ : BufTy).Contents (Elt Ideal))
  (x6 : (⟨S256x40, .f32⟩ : BufTy).Contents (Elt Ideal)) (x7 : (⟨S40, .f32⟩ : BufTy).Contents (Elt Ideal))

/-- The second hidden layer is the first one's operations, applied to the first one's result. -/
theorem layer1_is_layer0 :
    val_main_v27 (F := Ideal) x0 x1 x2 x3 x4 x5 = val_main_v13 (F := Ideal) x0 (val_main_v13 (F := Ideal) x0 x1 x2 x3) x4 x5 := rfl

/-- The output layer's aggregation is the first product, applied to the second layer's result. -/
theorem out_agg_is_agg :
    val_main_v28 (F := Ideal) x0 x1 x2 x3 x4 x5 = val_main_v0 (F := Ideal) x0 (val_main_v27 (F := Ideal) x0 x1 x2 x3 x4 x5) := rfl

/-- The output layer at (r, j). -/
theorem out_at (r : Fin 12000) (j : Fin 40) :
    val_main_v32 (F := Ideal) x0 x1 x2 x3 x4 x5 x6 x7 (ix2 r j)
      = linRow (fun k => x0 (ix2 r k)) (val_main_v27 (F := Ideal) x0 x1 x2 x3 x4 x5) x6 (fun j => x7 (ix1 j)) j := by
  rw [val_main_v32_apply, val_main_v29_apply, val_main_v31_apply, val_main_v30_apply, Ideal.addf_def]
  unfold linRow
  refine congrArg₂ (· + ·) (Finset.sum_congr rfl fun k _ => ?_) (congrArg x7 (idx1_eq _ j rfl))
  rw [idx2_eq (lidx_main_v29 (ix2 r j) k) r k rfl rfl, idx2_eq (ridx_main_v29 (ix2 r j) k) k j rfl rfl, out_agg_is_agg, agg_at]

/-- The reference's result is the network of its arguments. -/
theorem result_eq_net :
    val_main_v32 (F := Ideal) x0 x1 x2 x3 x4 x5 x6 x7 = net x0 x1 x2 x3 x4 x5 x6 x7 := by
  funext i
  obtain ⟨r, j, rfl⟩ : ∃ (r : Fin 12000) (j : Fin 40), i = ix2 r j := ⟨i 0, i 1, eq_ix2 i⟩
  rw [out_at, layer1_is_layer0, layer0, layer0]
  rfl

end Cert.ReferenceIdeal.RefSage

end
-- ==== Proof.lean ====
/-
  The certificate of a three-layer message-passing network computed 240 rows at a time against its plain reference.

  Both programs compute, for an adjacency matrix A, features X, weights W0, W1, W2 and biases b0, b1, b2,
      H1 = normalise (max (A·X·W0 + b0, 0)),   H2 = normalise (max (A·H1·W1 + b1, 0)),   result = A·H2·W2 + b2,
  where each product is (A·H)·W and normalise divides a row by the larger of its Euclidean norm and a small
  positive constant. The kernel computes each layer in fifty grid steps of 240 rows, with the adjacency matrix and
  the hidden features passed in a narrower float format and the last layer padded from 40 to 128 columns and
  sliced back. On the extended reals a change of format is the identity, a row of a product depends on the left
  factor only through that row, and a padded column never reaches the kept ones: the two results are the same
  function of the arguments (Spec.lean's `net`), operation for operation, with no appeal to the inputs' finiteness.

  The three frames are the generated ones (the reference's is its generated run with the result dropped); the
  idealization rewrote nothing, so `preserves` is trivial; `algebraic` states both runs at `net` of the arguments.
-/
import proofs.«130437_j35330400977322_2_alg».proof.Defs
import proofs.«130437_j35330400977322_2_alg».proof.Proof.Gen.Kernel
import proofs.«130437_j35330400977322_2_alg».proof.Proof.Gen.Kernel.Skeleton
import proofs.«130437_j35330400977322_2_alg».proof.Proof.Gen.Kernel.Launch
import proofs.«130437_j35330400977322_2_alg».proof.Proof.Gen.Kernel.Points
import proofs.«130437_j35330400977322_2_alg».proof.Proof.Gen.Kernel.Frame
import proofs.«130437_j35330400977322_2_alg».proof.Proof.Gen.KernelIdeal
import proofs.«130437_j35330400977322_2_alg».proof.Proof.Gen.KernelIdeal.Skeleton
import proofs.«130437_j35330400977322_2_alg».proof.Proof.Gen.KernelIdeal.Launch
import proofs.«130437_j35330400977322_2_alg».proof.Proof.Gen.KernelIdeal.Points
import proofs.«130437_j35330400977322_2_alg».proof.Proof.Gen.KernelIdeal.Frame
import proofs.«130437_j35330400977322_2_alg».proof.Proof.Gen.ReferenceIdeal
import proofs.«130437_j35330400977322_2_alg».proof.Proof.Gen.ReferenceIdeal.Read
import proofs.«130437_j35330400977322_2_alg».proof.Proof.Gen.Pre_finite_inputs
import proofs.«130437_j35330400977322_2_alg».proof.Proof.KernelRun
import proofs.«130437_j35330400977322_2_alg».proof.Proof.KernelValue
import proofs.«130437_j35330400977322_2_alg».proof.Proof.RefValue
import Idealize.ShloMosaic.Adequacy
import Idealize.ShloMosaic.Init

noncomputable section

namespace Cert.Proof

open Idealize.ShloMosaic Idealize.ShloMosaic.TcCoe Idealize.SL.Sem Cert.SageSpec

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffers. -/
theorem algebraic : Cert.algebraic_KernelIdeal_ReferenceIdeal := by
  intro m ρ m' ρ' _ hagree
  refine ⟨fun c => net (Cert.KernelIdeal.SageValue.argA m c) (Cert.KernelIdeal.SageValue.argX m c)
      (Cert.KernelIdeal.SageValue.argW0 m c) (Cert.KernelIdeal.SageValue.argB0 m c)
      (Cert.KernelIdeal.SageValue.argW1 m c) (Cert.KernelIdeal.SageValue.argB1 m c)
      (Cert.KernelIdeal.SageValue.argW2 m c) (Cert.KernelIdeal.SageValue.argB2 m c), ?_, ?_⟩
  · exact (θ_run Cert.KernelIdeal.defs _ _).mono
      (fun r h c => ⟨(h c).1.trans (Cert.KernelIdeal.SageValue.result_value m ρ c), (h c).2⟩)
      (Cert.KernelIdeal.SageRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, Cert.ReferenceIdeal.RefSage.result_eq_net,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
